-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S3200000 : Shape := ⟨1, ![3200000]⟩
abbrev S200000x1 : Shape := ⟨2, ![200000, 1]⟩
abbrev S64x64 : Shape := ⟨2, ![64, 64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S200000x1 : S_.BroadcastsInDim S200000x1 (![] : Fin 0 → Fin S200000x1.rank)
  reducesTo_S200000x1_S_d0_1 : S200000x1.ReducesTo [0, 1] S_
  bcast_S_S64x64 : S_.BroadcastsInDim S64x64 (![] : Fin 0 → Fin S64x64.rank)
  reducesTo_S64x64_S_d0_1 : S64x64.ReducesTo [0, 1] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg1 : IVec S3200000 32) (main_arg2 : IVec S3200000 32) (main_arg6 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_c_8 : IVec S_ 32 := constantI S_ 32 0#32
  let main_v24 : IVec S3200000 32 := broadcastInDim S3200000 ![] bcast_S_S3200000 main_c_8
  let main_v25 : IVec S3200000 1 := cmpi .sge main_arg1 main_v24
  let main_c_9 : IVec S_ 1 := constantI S_ 1 1#1
  let main_v26 : IVec S_ 1 := (fun x v => Host.reduce IntOp.andi x v reducesTo_S3200000_S_d0 h_S_) main_v25 main_c_9
  let main_v27 : IVec S_ 1 := andi main_v23 main_v26
  let main_c_10 : IVec S_ 32 := constantI S_ 32 0#32
  let main_v28 : IVec S3200000 32 := broadcastInDim S3200000 ![] bcast_S_S3200000 main_c_10
  let main_v29 : IVec S3200000 1 := cmpi .sge main_arg2 main_v28
  let main_c_11 : IVec S_ 1 := constantI S_ 1 1#1
  let main_v30 : IVec S_ 1 := (fun x v => Host.reduce IntOp.andi x v reducesTo_S3200000_S_d0 h_S_) main_v29 main_c_11
  let main_v31 : IVec S_ 1 := andi main_v27 main_v30
  main_v31

def fn {F : FTy → Type} [FloatOps F] (main_arg0 : FVec F S200000x64 .f32) (main_arg1 : IVec S3200000 32) (main_arg2 : IVec S3200000 32) (main_arg3 : FVec F S200000x1 .f32) (main_arg4 : FVec F S200000x1 .f32) (main_arg5 : FVec F S64x64 .f32) (main_arg6 : FVec F S64x64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x1 .f32 := Host.absf main_arg3
  let main_cst_0 : FVec F S_ .f32 := constant S_ .f32 0x7F800000#32
  let main_v5 : FVec F S200000x1 .f32 := broadcastInDim S200000x1 ![] bcast_S_S200000x1 main_cst_0
  let main_v6 : IVec S200000x1 1 := cmpf .olt main_v4 main_v5
  let main_c_1 : IVec S_ 1 := constantI S_ 1 1#1
  let main_v7 : IVec S_ 1 := (fun x v => Host.reduce IntOp.andi x v reducesTo_S200000x1_S_d0_1 h_S_) main_v6 main_c_1
  let main_v8 : IVec S_ 1 := andi main_v3 main_v7
  let main_v9 : FVec F S200000x1 .f32 := Host.absf main_arg4
  let main_cst_2 : FVec F S_ .f32 := constant S_ .f32 0x7F800000#32
  let main_v10 : FVec F S200000x1 .f32 := broadcastInDim S200000x1 ![] bcast_S_S200000x1 main_cst_2
  let main_v11 : IVec S200000x1 1 := cmpf .olt main_v9 main_v10
  let main_c_3 : IVec S_ 1 := constantI S_ 1 1#1
  let main_v12 : IVec S_ 1 := (fun x v => Host.reduce IntOp.andi x v reducesTo_S200000x1_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg6 main_v13 main_v16
-- ==== Kernel.lean ====
abbrev S200000x64 : Shape := ⟨2, ![200000, 64]⟩
abbrev S3200000 : Shape := ⟨1, ![3200000]⟩
abbrev S200000x1 : Shape := ⟨2, ![200000, 1]⟩
abbrev S64x64 : Shape := ⟨2, ![64, 64]⟩
abbrev S_ : Shape := ⟨0, ![]⟩
abbrev S3200000x1 : Shape := ⟨2, ![3200000, 1]⟩
abbrev S3200000x64 : Shape := ⟨2, ![3200000, 64]⟩
abbrev S4000x64 : Shape := ⟨2, ![4000, 64]⟩
abbrev S4000x1 : Shape := ⟨2, ![4000, 1]⟩

abbrev nBuf : Space → Nat
  | .hbm => 36
  | .vmem => 12
  | .smem => 0
  | _ => 0

abbrev bufTy : (tb : Table) → Fin (tcTables nBuf tb) → BufTy
  | .hbm, ⟨0, _⟩ => ⟨S200000x64, .f32⟩
  | .hbm, ⟨1, _⟩ => ⟨S3200000, .i32⟩
  | .hbm, ⟨2, _⟩ => ⟨S3200000, .i32⟩
  | .hbm, ⟨3, _⟩ => ⟨S200000x1, .f32⟩
  | .hbm, ⟨4, _⟩ => ⟨S200000x1, .f32⟩
  | .hbm, ⟨5, _⟩ => ⟨S64x64, .f32⟩
  | .hbm, ⟨6, _⟩ => ⟨S64x64, .f32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x64, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x64, .f32⟩
  | .hbm, ⟨25, _⟩ => ⟨S_, .f32⟩
  | .hbm, ⟨26, _⟩ => ⟨S200000x64, .f32⟩
  | .hbm, ⟨27, _⟩ => ⟨S3200000x1, .i32⟩
  | .hbm, ⟨28, _⟩ => ⟨S200000x64, .f32⟩
  | .hbm, ⟨29, _⟩ => ⟨S200000x64, .f32⟩
  | .hbm, ⟨30, _⟩ => ⟨S_, .f32⟩
  | .hbm, ⟨31, _⟩ => ⟨S200000x64, .f32⟩
  | .hbm, ⟨32, _⟩ => ⟨S3200000x1, .i32⟩
  | .hbm, ⟨33, _⟩ => ⟨S200000x64, .f32⟩
  | .hbm, ⟨34, _⟩ => ⟨S200000x64, .f32⟩
  | .hbm, ⟨35, _⟩ => ⟨S200000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S4000x1, .f32⟩
  | .local _ .vmem, ⟨7, _⟩ => ⟨S4000x1, .f32⟩
  | .local _ .vmem, ⟨8, _⟩ => ⟨S64x64, .f32⟩
  | .local _ .vmem, ⟨9, _⟩ => ⟨S64x64, .f32⟩
  | .local _ .vmem, ⟨10, _⟩ => ⟨S4000x64, .f32⟩
  | .local _ .vmem, ⟨11, _⟩ => ⟨S4000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S200000x64 : S_.BroadcastsInDim S200000x64 (![] : Fin 0 → Fin S200000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S4000x64_S64x64_S4000x64_1_1_0_0_n_n_wf : DotDims.WF S4000x64 S64x64 S4000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S200000x64.size a
  hwx0_0 : ∀ i : grid0.Coords, EltTy.bits .f32 = 32 ∨ (Rect.block (s := S200000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S200000x64.size a
  hwx0_1 : ∀ i : grid0.Coords, EltTy.bits .f32 = 32 ∨ (Rect.block (s := S200000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S200000x1.size a
  hwx0_2 : ∀ i : grid0.Coords, EltTy.bits .f32 = 32 ∨ (Rect.block (s := S200000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S200000x1.size a
  hwx0_3 : ∀ i : grid0.Coords, EltTy.bits .f32 = 32 ∨ (Rect.block (s := S200000x1) S4000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S200000x64.size a
  hwx0_6 : ∀ i : grid0.Coords, EltTy.bits .f32 = 32 ∨ (Rect.block (s := S200000x64) S4000x64.size (cc0_transform_6 i) (hinb0_6 i)).WholeWords (EltTy.packing .f32)

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S4000x64_S64x64_S4000x64_1_1_0_0_n_n : DotDims S4000x64 S64x64 S4000x64 where
  lhsContracting := [1]
  rhsContracting := [1]
  lhsNonContracting := [0]
  rhsNonContracting := [0]
  lhsBatch := []
  rhsBatch := []
  wf := dot_S4000x64_S64x64_S4000x64_1_1_0_0_n_n_wf

abbrev win0_0 : Pipeline.Window sig grid0 :=
  Pipeline.Window.ofSpec (Memref.whole main_v17) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x64 : Shape := ⟨2, ![200000, 64]⟩
abbrev S3200000 : Shape := ⟨1, ![3200000]⟩
abbrev S200000x1 : Shape := ⟨2, ![200000, 1]⟩
abbrev S64x64 : Shape := ⟨2, ![64, 64]⟩
abbrev S_ : Shape := ⟨0, ![]⟩
abbrev S3200000x1 : Shape := ⟨2, ![3200000, 1]⟩
abbrev S3200000x64 : Shape := ⟨2, ![3200000, 64]⟩

abbrev nBuf : Space → Nat
  | .hbm => 58
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S3200000, .i32⟩
  | .hbm, ⟨2, _⟩ => ⟨S3200000, .i32⟩
  | .hbm, ⟨3, _⟩ => ⟨S200000x1, .f32⟩
  | .hbm, ⟨4, _⟩ => ⟨S200000x1, .f32⟩
  | .hbm, ⟨5, _⟩ => ⟨S64x64, .f32⟩
  | .hbm, ⟨6, _⟩ => ⟨S64x64, .f32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x64, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S200000x64, .f32⟩
  | .hbm, ⟨25, _⟩ => ⟨S200000x64, .f32⟩
  | .hbm, ⟨26, _⟩ => ⟨S200000x64, .f32⟩
  | .hbm, ⟨27, _⟩ => ⟨S64x64, .f32⟩
  | .hbm, ⟨28, _⟩ => ⟨S200000x64, .f32⟩
  | .hbm, ⟨29, _⟩ => ⟨S_, .f32⟩
  | .hbm, ⟨30, _⟩ => ⟨S200000x64, .f32⟩
  | .hbm, ⟨31, _⟩ => ⟨S200000x64, .f32⟩
  | .hbm, ⟨32, _⟩ => ⟨S_, .i32⟩
  | .hbm, ⟨33, _⟩ => ⟨S3200000, .i32⟩
  | .hbm, ⟨34, _⟩ => ⟨S3200000, .i1⟩
  | .hbm, ⟨35, _⟩ => ⟨S_, .i32⟩
  | .hbm, ⟨36, _⟩ => ⟨S3200000, .i32⟩
  | .hbm, ⟨37, _⟩ => ⟨S3200000, .i32⟩
  | .hbm, ⟨38, _⟩ => ⟨S3200000, .i32⟩
  | .hbm, ⟨39, _⟩ => ⟨S3200000x1, .i32⟩
  | .hbm, ⟨40, _⟩ => ⟨S3200000x64, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S200000x64, .f32⟩
  | .hbm, ⟨50, _⟩ => ⟨S200000x64, .f32⟩
  | .hbm, ⟨51, _⟩ => ⟨S200000x64, .f32⟩
  | .hbm, ⟨52, _⟩ => ⟨S64x64, .f32⟩
  | .hbm, ⟨53, _⟩ => ⟨S200000x64, .f32⟩
  | .hbm, ⟨54, _⟩ => ⟨S_, .f32⟩
  | .hbm, ⟨55, _⟩ => ⟨S200000x64, .f32⟩
  | .hbm, ⟨56, _⟩ => ⟨S200000x64, .f32⟩
  | .hbm, ⟨57, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call1_cst : Ref sig .tc := ⟨.hbm, 54, rfl⟩
abbrev main_call1_v0 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S200000x1_S200000x64_0_1 : S200000x1.BroadcastsInDim S200000x64 (![0, 1] : Fin 2 → Fin S200000x64.rank)
  transposes_S64x64_S64x64_1_0 : S64x64.Transposes [1, 0] S64x64
  bcast_S_S200000x64 : S_.BroadcastsInDim S200000x64 (![] : Fin 0 → Fin S200000x64.rank)
  gather_S200000x64_S3200000x1_S3200000x64_1_0_n_n_0_1_164_wf : GatherDims.WF S200000x64 S3200000x1 S3200000x64 [1] [0] [] [0] [] 1 ![1, 64]
  scatter_S200000x64_S3200000x1_S3200000x64_1_0_0_1_wf : ScatterDims.WF S200000x64 S3200000x1 S3200000x64 [1] [0] [0] 1
  dot_S200000x64_S64x64_S200000x64_1_0_0_1_n_n_wf : DotDims.WF S200000x64 S64x64 S200000x64 [1] [0] [0] [1] [] []

variable [Facts₀]

def gather_S200000x64_S3200000x1_S3200000x64_1_0_n_n_0_1_164 : GatherDims S200000x64 S3200000x1 S3200000x64 where
  offsetDims := [1]
  collapsedSliceDims := [0]
  operandBatchingDims := []
  startIndicesBatchingDims := []
  startIndexMap := [0]
  indexVectorDim := 1
  sliceSizes := ![1, 64]
  wf := gather_S200000x64_S3200000x1_S3200000x64_1_0_n_n_0_1_164_wf
def scatter_S200000x64_S3200000x1_S3200000x64_1_0_0_1 : ScatterDims S200000x64 S3200000x1 S3200000x64 where
  updateWindowDims := [1]
  insertedWindowDims := [0]
  scatterDimsToOperandDims := [0]
  indexVectorDim := 1
  wf := scatter_S200000x64_S3200000x1_S3200000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf

class Facts : Prop extends Facts₀ where

variable [Facts]
-- ==== Proof.LibNonNegIndex.lean ====
/-
  An index array that is nowhere negative is its own wrapped form.

  Array indexing in the numpy style first wraps an index: a negative index `i` is replaced by `i + n` (`n` the
  extent of the indexed axis), a non-negative one is kept — printed as `select (i < 0) (i + n) i`, elementwise over an
  array of signed 32-bit words. Where every word of the array is non-negative the comparison is false everywhere, so
  the select returns the array itself, whatever the wrapped branch holds. The second lemma reads the non-negativity
  of one word off the elementwise comparison `i ≥ 0` that a stated domain `all(i >= 0)` reduces.
  Any shape; the zero array is any array whose every word is `0`. Imports only the library.
-/
import Idealize.ShloMosaic.PureOps
import Idealize.ShloMosaic.Lib.Affine

namespace Idealize.ShloMosaic.NonNegIndex

open Idealize.ShloMosaic

theorem toInt_zero32 : (0#32 : BitVec 32).toInt = 0 := by decide

/-- Where every word of `x` is non-negative (signed), `select (x < 0) y x = x` for every `y`. -/
theorem select_slt_zero_eq_self {s : Shape} (x z y : IVec s 32) (hz : ∀ i, z i = 0#32)
    (hx : ∀ i, 0 ≤ (x i).toInt) : select (cmpi .slt x z) y x = x := by
  funext i
  show Scalar.select (IntOp.cmpi .slt (x i) (z i)) (y i) (x i) = x i
  unfold Scalar.select
  rw [if_neg]
  intro h
  have h' : IntOp.cmpi .slt (x i) (z i) = 1#1 := h
  rw [IntOp.cmpi_slt, hz i, toInt_zero32] at h'
  have := hx i
  omega

/-- The elementwise test `x ≥ 0` (signed) holding at `i` says the word there is non-negative. -/
theorem nonneg_of_cmpi_sge {s : Shape} (x z : IVec s 32) (hz : ∀ i, z i = 0#32) (i : s.Idx)
    (h : cmpi .sge x z i = 1#1) : 0 ≤ (x i).toInt := by
  have h' : IntOp.cmpi .sge (x i) (z i) = 1#1 := h
  rw [IntOp.cmpi_sge, hz i, toInt_zero32] at h'
  exact h'

end Idealize.ShloMosaic.NonNegIndex
-- ==== Proof.IndexDomain.lean ====
/-
  The stated domain of the two index arrays, read off the precondition.

  The precondition is one bit: the conjunction of `all (|a| < +∞)` for each float argument and of `all (sources ≥ 0)`
  and `all (targets ≥ 0)`. When that bit is one, each conjunct is one; an `all` that is one had a one at every element;
  and the element test `i ≥ 0` (signed) being one says the word is non-negative. So every word of both index arrays
  is non-negative — which is all the proof uses of the precondition (the finiteness conjuncts are not needed: no step
  cancels or distributes).
-/
import proofs.«119299_j40415642256025_1_alg».proof.Pre_finite_inputs
import proofs.«119299_j40415642256025_1_alg».proof.Proof.LibNonNegIndex
import Idealize.ShloMosaic.Lib.ReduceAll
import Idealize.ShloMosaic.Lib.Affine

namespace Cert.Proof.IndexDomain

open Idealize.ShloMosaic Cert.Pre_finite_inputs

variable {F : FTy → Type} [FloatOps F] [Cert.Pre_finite_inputs.Facts]

instance : Subsingleton S_.Idx := ⟨fun a b => funext fun d => d.elim0⟩

/-- The precondition's bit being one, every word of `sources` and of `targets` is non-negative (signed). -/
theorem nonneg (a0 : FVec F S200000x64 .f32) (a1 a2 : IVec S3200000 32) (a3 a4 : FVec F S200000x1 .f32)
    (a5 a6 : FVec F S64x64 .f32) (h : fn (F := F) a0 a1 a2 a3 a4 a5 a6 = fun _ => 1#1) :
    (∀ e, 0 ≤ (a1 e).toInt) ∧ (∀ e, 0 ≤ (a2 e).toInt) := by
  have e := congrFun h (fun d => d.elim0)
  unfold fn fn_part1 at e
  dsimp only at e
  obtain ⟨e12, e2⟩ := IntOp.andi_eq_one.mp e
  obtain ⟨-, e1⟩ := IntOp.andi_eq_one.mp e12
  refine ⟨fun i => ?_, fun i => ?_⟩
  · exact NonNegIndex.nonneg_of_cmpi_sge a1 _ (fun _ => rfl) i (Host.reduce_andi_all _ _ _ _ _ e1 i)
  · exact NonNegIndex.nonneg_of_cmpi_sge a2 _ (fun _ => rfl) i (Host.reduce_andi_all _ _ _ _ _ e2 i)

end Cert.Proof.IndexDomain
-- ==== Proof.LibMatmulRowsByRowsOf.lean ====
/-
  A matrix product whose right operand is contracted on its LAST axis, into the zero accumulator, read at an entry.

  On the extended reals a `tpu.matmul` of an `[M, K]` left operand and an `[N, K]` right operand (`x · wᵀ`: the
  contraction on both operands' second axis, no batch axis), accumulated into the zero splat, is at entry `(p, q)`
  the inner product of row `p` of the left operand with row `q` of the right one, `∑ₖ l(p, k) · r(q, k)`: no rounding,
  no order of accumulation. The dimension record is kept abstract; what is asked of it is that it contracts one axis of
  extent `K` and reads its operands at `(p, k)` and `(q, k)` — four facts a concrete record gives by unfolding.
  Imports only the library.
-/
import Idealize.ShloMosaic.PureOps.Ideal.Laws
import Idealize.ShloMosaic.Lib.ValueIdx

namespace Idealize.ShloMosaic.MatmulRowsByRowsOf

open Idealize.ShloMosaic Idealize.ShloMosaic.ValueIdx

/-- `matmul D prec l r 0` at `(p, q)` is `∑ k, l (p, k) * r (q, k)`. -/
theorem matmul_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (j 1).val)
    (hr1 : ∀ (j : (⟨2, ![M, N]⟩ : Shape).Idx) (q : D.contr.Idx), (D.rhsIdx j q 1).val = (q ⟨0, by omega⟩).val)
    (prec : Option ContractPrecision) (l : FVec Ideal ⟨2, ![M, K]⟩ φ₁) (r : FVec Ideal ⟨2, ![N, K]⟩ φ₂)
    (p : Fin M) (q : Fin N) :
    matmul D prec l r (constant (F := Ideal) ⟨2, ![M, N]⟩ .f32 0x00000000#32) (ix2 p q)
      = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRowsByRowsOf
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.BodyEntry.lean ====
/-
  What the kernel body stores, at one entry of its [4000, 64] output block.

  From its six loaded blocks — two [4000, 64] blocks `a`, `b` of the aggregated features, two [4000, 1] columns `n`,
  `n'` of row scales, and the two [64, 64] weight matrices `w`, `w'` — the body forms `n · a` and `n' · b` (each
  row scaled by its entry of the column), multiplies each by its weight matrix TRANSPOSED (the contraction runs over
  the second axis of both operands) into a zero accumulator, clamps both products below at zero and adds them. On the
  extended reals the changes of float format are the identity and the matrix product is the exact sum, so entry
  `(p, q)` is

      max (∑ₖ (n p · a(p, k)) · w(q, k)) 0  +  max (∑ₖ (n' p · b(p, k)) · w'(q, k)) 0 .

  The output buffer after the body is the one store of this value through the buffer's whole rectangle.
-/
import proofs.«119299_j40415642256025_1_alg».proof.Proof.Gen.KernelIdeal.Frame
import proofs.«119299_j40415642256025_1_alg».proof.Proof.LibMatmulRowsByRowsOf
import proofs.«119299_j40415642256025_1_alg».proof.Proof.LibColumnLayout
import Idealize.ShloMosaic.Lib.Pipeline.Value
import Idealize.ShloMosaic.Lib.ValueIdx
import Idealize.ShloMosaic.PureOps.Ideal.Laws

noncomputable section

namespace Cert.KernelIdeal.BodyEntry

open Cert.KernelIdeal Cert.KernelIdeal.Gen Idealize.ShloMosaic Idealize.ShloMosaic.ValueIdx

local notation "D" => dot_S4000x64_S64x64_S4000x64_1_1_0_0_n_n

/-! ## The contraction's index maps -/

theorem lhs0 (j : S4000x64.Idx) (q : (D).contr.Idx) : ((D).lhsIdx j q 0).val = (j 0).val := by
  unfold DotDims.lhsIdx
  rw [dif_neg (show ¬(0 : Fin S4000x64.rank) ∈ (D).lhsBatch by decide),
    dif_pos (show (0 : Fin S4000x64.rank) ∈ (D).lhsNonContracting by decide)]
  rfl
theorem lhs1 (j : S4000x64.Idx) (q : (D).contr.Idx) : ((D).lhsIdx j q 1).val = (q ⟨0, by decide⟩).val :=
  (D).lhsIdx_val_of_single rfl j q
theorem rhs0 (j : S4000x64.Idx) (q : (D).contr.Idx) : ((D).rhsIdx j q 0).val = (j 1).val := by
  unfold DotDims.rhsIdx
  rw [dif_neg (show ¬(0 : Fin S64x64.rank) ∈ (D).rhsBatch by decide),
    dif_pos (show (0 : Fin S64x64.rank) ∈ (D).rhsNonContracting by decide)]
  rfl
theorem rhs1 (j : S4000x64.Idx) (q : (D).contr.Idx) : ((D).rhsIdx j q 1).val = (q ⟨0, by decide⟩).val :=
  (D).rhsIdx_val_of_single rfl j q

/-! ## One direction: the scaled block times the transposed weights -/

/-- Entry `(p, q)` of `(n · a) · wᵀ` accumulated from zero is `∑ₖ (n p · a(p, k)) · w(q, k)`. -/
theorem scaled_product (a : Vec Ideal S4000x64 .f32) (n : Vec Ideal S4000x1 .f32) (w : Vec Ideal S64x64 .f32)
    (p : Fin 4000) (q : Fin 64) :
    matmul (F := Ideal) D none
        (truncf .bf16 (mulf (broadcastTo S4000x64 n broadcasts_S4000x1_S4000x64) (shapeCast S4000x64 a shapeCasts_S4000x64_S4000x64)) bitsLt_bf16_f32)
        (truncf .bf16 w bitsLt_bf16_f32) (constant S4000x64 .f32 0x00000000#32) (ix2 p q)
      = ∑ k : Fin 64, (n (ix2 p (0 : Fin 1)) * a (ix2 p k)) * w (ix2 q k) := by
  refine (MatmulRowsByRowsOf.matmul_zero_apply D rfl rfl lhs0 lhs1 rhs0 rhs1 none _ _ p q).trans ?_
  refine Finset.sum_congr rfl fun k _ => ?_
  show (broadcastTo S4000x64 n broadcasts_S4000x1_S4000x64 (ix2 p k)
      * shapeCast S4000x64 a shapeCasts_S4000x64_S4000x64 (ix2 p k)) * w (ix2 q k) = _
  rw [broadcastTo_a1_ab_apply, shapeCast_self]

/-! ## The stored value -/

/-- The body's one stored value at entry `(p, q)`. -/
theorem stored_apply (x0 x1 : Vec Ideal S4000x64 .f32) (x2 x3 : Vec Ideal S4000x1 .f32) (x4 x5 : Vec Ideal S64x64 .f32)
    (p : Fin 4000) (q : Fin 64) :
    k0_pay1 (F := Ideal) x0 x1 x2 x3 x4 x5 (ix2 p q)
      = max (∑ k : Fin 64, (x2 (ix2 p (0 : Fin 1)) * x0 (ix2 p k)) * x4 (ix2 q k)) 0
        + max (∑ k : Fin 64, (x3 (ix2 p (0 : Fin 1)) * x1 (ix2 p k)) * x5 (ix2 q k)) 0 := by
  unfold k0_pay1
  show max (matmul (F := Ideal) D none _ _ _ (ix2 p q)) (Ideal.ofBits .f32 0x00000000#32)
      + max (matmul (F := Ideal) D none _ _ _ (ix2 p q)) (Ideal.ofBits .f32 0x00000000#32) = _
  rw [scaled_product, scaled_product, Ideal.ofBits_zero_f32]

theorem zero_off : (![0, 0] : Fin 2 → Nat) = fun _ => 0 := funext fun a => by fin_cases a <;> rfl

/-- The output buffer after the body, at entry `(p, q)`: the one store, through the whole rectangle, of that value of
    the six input buffers read through their whole rectangles. -/
theorem out_apply (x0 x1 : Vec Ideal S4000x64 .f32) (x2 x3 : Vec Ideal S4000x1 .f32) (x4 x5 : Vec Ideal S64x64 .f32)
    (p : Fin 4000) (q : Fin 64) :
    out0_6 (F := Ideal) x0 x1 x2 x3 x4 x5 (ix2 p q)
      = max (∑ k : Fin 64, (x2 (ix2 p (0 : Fin 1)) * x0 (ix2 p k)) * x4 (ix2 q k)) 0
        + max (∑ k : Fin 64, (x3 (ix2 p (0 : Fin 1)) * x1 (ix2 p k)) * x5 (ix2 q k)) 0 := by
  unfold out0_6
  rw [View.canon_unit_zero zero_off]
  simp only [View.ld_unit_zero (S := S4000x64) zero_off, View.ld_unit_zero (S := S4000x1) zero_off,
    View.ld_unit_zero (S := S64x64) zero_off]
  exact stored_apply x0 x1 x2 x3 x4 x5 p q

/-- The same entry when the six buffers hold rows of larger arrays: row `p` of the feature and scale blocks being row
    `r` of the arrays `A`, `B`, `n`, `n'`, and the weight blocks being `w`, `w'`. -/
theorem out_apply_of_rows (x0 x1 : Vec Ideal S4000x64 .f32) (x2 x3 : Vec Ideal S4000x1 .f32) (x4 x5 : Vec Ideal S64x64 .f32)
    (A B : S200000x64.Idx → EReal) (n n' : S200000x1.Idx → EReal) (w w' : S64x64.Idx → EReal)
    (p : Fin 4000) (q : Fin 64) (r : Fin 200000)
    (h0 : ∀ k : Fin 64, x0 (ix2 p k) = A (ix2 r k)) (h1 : ∀ k : Fin 64, x1 (ix2 p k) = B (ix2 r k))
    (h2 : x2 (ix2 p (0 : Fin 1)) = n (ix2 r (0 : Fin 1))) (h3 : x3 (ix2 p (0 : Fin 1)) = n' (ix2 r (0 : Fin 1)))
    (h4 : ∀ k : Fin 64, x4 (ix2 q k) = w (ix2 q k)) (h5 : ∀ k : Fin 64, x5 (ix2 q k) = w' (ix2 q k)) :
    out0_6 (F := Ideal) x0 x1 x2 x3 x4 x5 (ix2 p q)
      = max (∑ k : Fin 64, (n (ix2 r (0 : Fin 1)) * A (ix2 r k)) * w (ix2 q k)) 0
        + max (∑ k : Fin 64, (n' (ix2 r (0 : Fin 1)) * B (ix2 r k)) * w' (ix2 q k)) 0 := by
  rw [out_apply, h2, h3]
  simp only [h0, h1, h4, h5]

end Cert.KernelIdeal.BodyEntry

end
-- ==== Proof.LibScatterAddFromZero.lean ====
/-
  A segment sum added to an array is the same updates accumulated into the array.

  On the extended reals an accumulating scatter gives, at each element `i` of its operand, the operand's value there
  plus the sum of the update elements whose scatter index lands on `i` (an update landing outside the operand adds
  nothing). So scattering into an all-zero array and adding the result to `x` — `x + segment_sum(updates, ids)` —
  is, element by element, `x i + (0 + ∑ …)`, and scattering the same updates at the same indices into `x` itself —
  `x.at[ids].add(updates)` — is `x i + ∑ …`: the two agree, by `0 + s = s` alone, for every extended-real input
  (no finiteness is needed: nothing is cancelled or distributed), any dimension numbers and any index width.
  Imports only the library.
-/
import Idealize.ShloMosaic.PureOps
import Idealize.ShloMosaic.PureOps.Ideal

namespace Idealize.ShloMosaic.ScatterAddFromZero

open Idealize.ShloMosaic

/-- `x + scatterAdd z idx upd = scatterAdd x idx upd` when `z` is zero everywhere. -/
theorem addf_scatterAdd_zero {s si su : Shape} {φ : FTy} {w : Nat} (d : ScatterDims s si su)
    (x z : FVec Ideal s φ) (hz : ∀ i, z i = 0) (idx : IVec si w) (upd : FVec Ideal su φ) :
    addf x (Host.scatterAdd d z idx upd) = Host.scatterAdd d x idx upd := by
  funext i
  show x i + (z i + _) = x i + _
  rw [hz i, zero_add]

end Idealize.ShloMosaic.ScatterAddFromZero
-- ==== Proof.Aggregation.lean ====
/-
  The kernel's two aggregated feature arrays are the reference's two scatter stages.

  Both programs gather the rows `x[wrap(sources)]` (resp. `x[wrap(targets)]`), `wrap` replacing a negative index `i`
  by `i + 200000`. The reference accumulates the gathered rows INTO `x` at the rows `wrap(targets)` (resp.
  `wrap(sources)`); the kernel's host code accumulates them into an all-zero array at the rows `targets` (resp.
  `sources`) AS GIVEN — a segment sum, which does not wrap — and adds `x` afterwards. Two things make the results
  equal on the extended reals: where the scatter indices are nowhere negative, `wrap` leaves them as they are
  (only this array's non-negativity is used; the gather's indices are wrapped alike on both sides and may be anything);
  and `x + (0 + ∑ landing updates) = x + ∑ landing updates`.
-/
import proofs.«119299_j40415642256025_1_alg».proof.Proof.Gen.KernelIdeal.Frame
import proofs.«119299_j40415642256025_1_alg».proof.Proof.Gen.ReferenceIdeal.Read
import proofs.«119299_j40415642256025_1_alg».proof.Proof.LibNonNegIndex
import proofs.«119299_j40415642256025_1_alg».proof.Proof.LibScatterAddFromZero
import Idealize.ShloMosaic.Lib.StableHlo.Run
import Idealize.ShloMosaic.PureOps.Ideal.Laws

noncomputable section

namespace Cert.KernelIdeal.Aggregation

open Cert.KernelIdeal Cert.KernelIdeal.Gen Idealize.ShloMosaic Idealize.ShloMosaic.TcCoe Idealize.SL.Sem
open Idealize.ShloMosaic.StableHlo

/-! ## As functions of the argument arrays -/

/-- Forward direction: rows gathered at `wrap(s)`, accumulated at `t`; `t` nowhere negative. -/
theorem forward_eq (x : FVec Ideal S200000x64 .f32) (s t : IVec S3200000 32) (ht : ∀ e, 0 ≤ (t e).toInt) :
    addf x (Host.scatterAdd scatter_S200000x64_S3200000x1_S3200000x64_1_0_0_1
        (broadcastInDim S200000x64 ![] bcast_S_S200000x64 (constant (F := Ideal) S_ .f32 0x00000000#32))
        (broadcastInDim S3200000x1 ![0] bcast_S3200000_S3200000x1_0 t)
        (Host.gather gather_S200000x64_S3200000x1_S3200000x64_1_0_n_n_0_1_164 x
          (broadcastInDim S3200000x1 ![0] bcast_S3200000_S3200000x1_0
            (select (cmpi .slt s (broadcastInDim S3200000 ![] bcast_S_S3200000 (constantI S_ 32 0#32)))
              (addi s (broadcastInDim S3200000 ![] bcast_S_S3200000 (constantI S_ 32 200000#32))) s))))
      = Cert.ReferenceIdeal.Read.val_main_v13 (F := Ideal) x s t := by
  refine (ScatterAddFromZero.addf_scatterAdd_zero _ x _ ?_ _ _).trans ?_
  · intro i; exact Ideal.ofBits_zero_f32
  · have h11 : Cert.ReferenceIdeal.Read.val_main_v11 (F := Ideal) t = t :=
      NonNegIndex.select_slt_zero_eq_self t _ _ (fun _ => rfl) ht
    unfold Cert.ReferenceIdeal.Read.val_main_v13 Cert.ReferenceIdeal.Read.val_main_v12
    rw [h11]
    rfl

/-- Backward direction: rows gathered at `wrap(t)`, accumulated at `s`; `s` nowhere negative. -/
theorem backward_eq (x : FVec Ideal S200000x64 .f32) (s t : IVec S3200000 32) (hs : ∀ e, 0 ≤ (s e).toInt) :
    addf x (Host.scatterAdd scatter_S200000x64_S3200000x1_S3200000x64_1_0_0_1
        (broadcastInDim S200000x64 ![] bcast_S_S200000x64 (constant (F := Ideal) S_ .f32 0x00000000#32))
        (broadcastInDim S3200000x1 ![0] bcast_S3200000_S3200000x1_0 s)
        (Host.gather gather_S200000x64_S3200000x1_S3200000x64_1_0_n_n_0_1_164 x
          (broadcastInDim S3200000x1 ![0] bcast_S3200000_S3200000x1_0
            (select (cmpi .slt t (broadcastInDim S3200000 ![] bcast_S_S3200000 (constantI S_ 32 0#32)))
              (addi t (broadcastInDim S3200000 ![] bcast_S_S3200000 (constantI S_ 32 200000#32))) t))))
      = Cert.ReferenceIdeal.Read.val_main_v32 (F := Ideal) x s t := by
  refine (ScatterAddFromZero.addf_scatterAdd_zero _ x _ ?_ _ _).trans ?_
  · intro i; exact Ideal.ofBits_zero_f32
  · have h30 : Cert.ReferenceIdeal.Read.val_main_v30 (F := Ideal) s = s :=
      NonNegIndex.select_slt_zero_eq_self s _ _ (fun _ => rfl) hs
    unfold Cert.ReferenceIdeal.Read.val_main_v32 Cert.ReferenceIdeal.Read.val_main_v31
    rw [h30]
    rfl

/-! ## As the region finds them -/

variable (m : (ℓ : Loc nD τ sig) → Buf (Elt Ideal) ℓ)

set_option maxRecDepth 8192 in
set_option maxHeartbeats 2000000 in
/-- The first window's array when the region is entered. -/
theorem V_forward (c : Dev nD) (ht : ∀ e, 0 ≤ ((m ((c : Thread nD τ).loc main_arg2) : IVec S3200000 32) e).toInt) :
    (V m c main_v17 : S200000x64.Idx → EReal)
      = Cert.ReferenceIdeal.Read.val_main_v13 (F := Ideal) (m ((c : Thread nD τ).loc main_arg0))
          (m ((c : Thread nD τ).loc main_arg1)) (m ((c : Thread nD τ).loc main_arg2)) := by
  show StableHlo.after hostOps0 (fun b => m (c, b)) (Proc.devRef .tc main_v17) = _
  after_results
  exact forward_eq _ _ _ ht

set_option maxRecDepth 8192 in
set_option maxHeartbeats 2000000 in
/-- The second window's array when the region is entered. -/
theorem V_backward (c : Dev nD) (hs : ∀ e, 0 ≤ ((m ((c : Thread nD τ).loc main_arg1) : IVec S3200000 32) e).toInt) :
    (V m c main_v21 : S200000x64.Idx → EReal)
      = Cert.ReferenceIdeal.Read.val_main_v32 (F := Ideal) (m ((c : Thread nD τ).loc main_arg0))
          (m ((c : Thread nD τ).loc main_arg1)) (m ((c : Thread nD τ).loc main_arg2)) := by
  show StableHlo.after hostOps0 (fun b => m (c, b)) (Proc.devRef .tc main_v21) = _
  after_results
  exact backward_eq _ _ _ hs

end Cert.KernelIdeal.Aggregation

end
-- ==== Proof.ReferenceEntry.lean ====
/-
  The reference's result at one entry.

  With `A = x.at[wrap(targets)].add(x[wrap(sources)])` and `B = x.at[wrap(sources)].add(x[wrap(targets)])` (the two
  scatter stages, kept whole here), the reference scales each row of `A` by `norm` and of `B` by `norm_t`, multiplies
  by the TRANSPOSE of the weight matrix, clamps below at zero and adds. Read at entry `(r, q)` on the extended reals —
  the product as its exact sum over the contracted axis, the transpose as the swapped index, the broadcast column as
  its row's entry, the zero splat as `0` — this is

      max (∑ₖ (norm r · A(r, k)) · W_out(q, k)) 0  +  max (∑ₖ (norm_t r · B(r, k)) · W_back(q, k)) 0 .
-/
import proofs.«119299_j40415642256025_1_alg».proof.Proof.Gen.ReferenceIdeal.Read
import Idealize.ShloMosaic.Lib.ValueIdx
import Idealize.ShloMosaic.PureOps.Ideal.Laws

noncomputable section

namespace Cert.ReferenceIdeal.Entry

open Cert.ReferenceIdeal Cert.ReferenceIdeal.Gen Cert.ReferenceIdeal.Read Idealize.ShloMosaic Idealize.ShloMosaic.ValueIdx

theorem result_apply (x0 : FVec Ideal S200000x64 .f32) (x1 x2 : IVec S3200000 32) (x3 x4 : FVec Ideal S200000x1 .f32)
    (x5 x6 : FVec Ideal S64x64 .f32) (r : Fin 200000) (q : Fin 64) :
    val_main_v38 (F := Ideal) x0 x1 x2 x3 x4 x5 x6 (ix2 r q)
      = max (∑ k : Fin 64, (x3 (ix2 r (0 : Fin 1)) * val_main_v13 (F := Ideal) x0 x1 x2 (ix2 r k)) * x5 (ix2 q k)) 0
        + max (∑ k : Fin 64, (x4 (ix2 r (0 : Fin 1)) * val_main_v32 (F := Ideal) x0 x1 x2 (ix2 r k)) * x6 (ix2 q k)) 0 := by
  have el17 : ∀ k : Fin 64, lidx_main_v17 (ix2 r q) k = ix2 r k := fun k => funext fun a => Fin.ext (by
    match a with | ⟨0, _⟩ => rfl | ⟨1, _⟩ => rfl)
  have er17 : ∀ k : Fin 64, ridx_main_v17 (ix2 r q) k = ix2 k q := fun k => funext fun a => Fin.ext (by
    match a with | ⟨0, _⟩ => rfl | ⟨1, _⟩ => rfl)
  have el36 : ∀ k : Fin 64, lidx_main_v36 (ix2 r q) k = ix2 r k := fun k => funext fun a => Fin.ext (by
    match a with | ⟨0, _⟩ => rfl | ⟨1, _⟩ => rfl)
  have er36 : ∀ k : Fin 64, ridx_main_v36 (ix2 r q) k = ix2 k q := fun k => funext fun a => Fin.ext (by
    match a with | ⟨0, _⟩ => rfl | ⟨1, _⟩ => rfl)
  have e14 : ∀ k : Fin 64, idx_main_v14 (ix2 r k) = ix2 r (0 : Fin 1) := fun k => funext fun a => Fin.ext (by
    match a with | ⟨0, _⟩ => rfl | ⟨1, _⟩ => rfl)
  have e33 : ∀ k : Fin 64, idx_main_v33 (ix2 r k) = ix2 r (0 : Fin 1) := fun k => funext fun a => Fin.ext (by
    match a with | ⟨0, _⟩ => rfl | ⟨1, _⟩ => rfl)
  have e16 : ∀ k : Fin 64, idx_main_v16 (ix2 k q) = ix2 q k := fun k => funext fun a => Fin.ext (by
    match a with | ⟨0, _⟩ => rfl | ⟨1, _⟩ => rfl)
  have e35 : ∀ k : Fin 64, idx_main_v35 (ix2 k q) = ix2 q k := fun k => funext fun a => Fin.ext (by
    match a with | ⟨0, _⟩ => rfl | ⟨1, _⟩ => rfl)
  rw [val_main_v38_apply, val_main_v18_apply, val_main_v37_apply, val_main_v17_apply, val_main_v36_apply,
    val_main_call0_v0_apply, val_main_call1_v0_apply, val_main_call0_cst_apply, val_main_call1_cst_apply]
  simp only [el17, er17, el36, er36, val_main_v15_apply, val_main_v34_apply, val_main_v14_apply, val_main_v33_apply,
    val_main_v16_apply, val_main_v35_apply, e14, e33, e16, e35, Ideal.addf_def, Ideal.maximumf_def, Ideal.mulf_def,
    Ideal.ofBits_def, Ideal.ofBits_zero_f32]

end Cert.ReferenceIdeal.Entry

end
-- ==== Proof.WholeArray.lean ====
/-
  From the fifty row blocks to the whole result array.

  The grid has fifty points; point `t` is handed rows `4000·t … 4000·t + 3999` of the two aggregated feature arrays and
  of the two scale columns, and the two weight matrices whole, and writes back rows `4000·t … 4000·t + 3999` of the
  result. Entry `(p, q)` of what it writes is the body's value of row `p` of its blocks, which is row `r = 4000·t + p` of
  the arrays — exactly the reference's result at `(r, q)`, once the kernel's aggregated arrays are known to be the
  reference's two scatter stages. The fifty blocks tile the 200000 rows (row `r` lies in block `r / 4000`), so the
  whole array ends holding the reference's result.
-/
import proofs.«119299_j40415642256025_1_alg».proof.Proof.Gen.KernelIdeal.Value
import proofs.«119299_j40415642256025_1_alg».proof.Proof.BodyEntry
import proofs.«119299_j40415642256025_1_alg».proof.Proof.Aggregation
import proofs.«119299_j40415642256025_1_alg».proof.Proof.ReferenceEntry
import Idealize.ShloMosaic.Lib.Pipeline.Value
import Idealize.ShloMosaic.Lib.ValueIdx

set_option maxRecDepth 16384

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result as one function of the seven argument arrays: the reference's composed stage. -/
def result (c : Dev nD) : S200000x64.Idx → EReal :=
  Cert.ReferenceIdeal.Read.val_main_v38 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The printed index maps over the grid: the row-tiled windows are at block `(t, 0)`, the weights at `(0, 0)`. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- WHAT POINT `t` WRITES BACK is block `t` of `result`, when both index arrays are nowhere negative. -/
theorem flushed_eq (c : Dev nD)
    (hs : ∀ e, 0 ≤ ((m ((c : Thread nD τ).loc main_arg1) : IVec S3200000 32) e).toInt)
    (ht : ∀ e, 0 ≤ ((m ((c : Thread nD τ).loc main_arg2) : IVec S3200000 32) e).toInt) (t : Fin cfg0.N) :
    (dats m 0 c).flushed 6 t = ((cfg0.win 6).blk t).view.read (Elt Ideal) (result m c) := by
  rw [Value.flushed6]
  obtain ⟨⟨e00, e01⟩, ⟨e10, e11⟩, ⟨e20, e21⟩, ⟨e30, e31⟩, ⟨e40, e41⟩, ⟨e50, e51⟩, ⟨e60, e61⟩⟩ := block_indices t
  have hN : t.val < 50 := Nat.lt_of_lt_of_eq t.isLt N_0
  refine funext fun (j : S4000x64.Idx) => ?_
  obtain ⟨p, q, rfl⟩ : ∃ (p : Fin 4000) (q : Fin 64), j = ix2 p q := ⟨j 0, j 1, eq_ix2 j⟩
  have hp := p.isLt
  have hq := q.isLt
  let r : Fin 200000 := ⟨t.val * 4000 + p.val, by omega⟩
  show out0_6 (iblk m c 0 t) (iblk m c 1 t) (iblk m c 2 t) (iblk m c 3 t) (iblk m c 4 t) (iblk m c 5 t) (ix2 p q)
      = result m c (((cfg0.win 6).blk t).view.emb (ix2 p q))
  have h6 : ((cfg0.win 6).blk t).view.emb (ix2 p q) = ix2 r q := by
    funext a; apply Fin.ext
    match a with
    | ⟨0, _⟩ => show win0_6.index t (0 : Fin 2) * 4000 + 1 * p.val = t.val * 4000 + p.val; rw [e60]; omega
    | ⟨1, _⟩ => show win0_6.index t (1 : Fin 2) * 64 + 1 * q.val = q.val; rw [e61]; omega
  rw [h6]
  refine (BodyEntry.out_apply_of_rows (iblk m c 0 t) (iblk m c 1 t) (iblk m c 2 t) (iblk m c 3 t) (iblk m c 4 t) (iblk m c 5 t)
    (V m c main_v17) (V m c main_v21) (V m c main_arg3) (V m c main_arg4) (V m c main_arg5) (V m c main_arg6) p q r
    ?_ ?_ ?_ ?_ ?_ ?_).trans ?_
  · intro k
    show V m c main_v17 (((cfg0.win 0).blk t).view.emb (ix2 p k)) = V m c main_v17 (ix2 r k)
    refine congrArg _ (funext fun a => Fin.ext ?_)
    match a with
    | ⟨0, _⟩ => show win0_0.index t (0 : Fin 2) * 4000 + 1 * p.val = t.val * 4000 + p.val; rw [e00]; omega
    | ⟨1, _⟩ => show win0_0.index t (1 : Fin 2) * 64 + 1 * k.val = k.val; rw [e01]; omega
  · intro k
    show V m c main_v21 (((cfg0.win 1).blk t).view.emb (ix2 p k)) = V m c main_v21 (ix2 r k)
    refine congrArg _ (funext fun a => Fin.ext ?_)
    match a with
    | ⟨0, _⟩ => show win0_1.index t (0 : Fin 2) * 4000 + 1 * p.val = t.val * 4000 + p.val; rw [e10]; omega
    | ⟨1, _⟩ => show win0_1.index t (1 : Fin 2) * 64 + 1 * k.val = k.val; rw [e11]; omega
  · show V m c main_arg3 (((cfg0.win 2).blk t).view.emb (ix2 p (0 : Fin 1))) = V m c main_arg3 (ix2 r (0 : Fin 1))
    refine congrArg _ (funext fun a => Fin.ext ?_)
    match a with
    | ⟨0, _⟩ => show win0_2.index t (0 : Fin 2) * 4000 + 1 * p.val = t.val * 4000 + p.val; rw [e20]; omega
    | ⟨1, _⟩ => show win0_2.index t (1 : Fin 2) * 1 + 1 * 0 = 0; rw [e21]
  · show V m c main_arg4 (((cfg0.win 3).blk t).view.emb (ix2 p (0 : Fin 1))) = V m c main_arg4 (ix2 r (0 : Fin 1))
    refine congrArg _ (funext fun a => Fin.ext ?_)
    match a with
    | ⟨0, _⟩ => show win0_3.index t (0 : Fin 2) * 4000 + 1 * p.val = t.val * 4000 + p.val; rw [e30]; omega
    | ⟨1, _⟩ => show win0_3.index t (1 : Fin 2) * 1 + 1 * 0 = 0; rw [e31]
  · intro k
    show V m c main_arg5 (((cfg0.win 4).blk t).view.emb (ix2 q k)) = V m c main_arg5 (ix2 q k)
    refine congrArg _ (funext fun a => Fin.ext ?_)
    match a with
    | ⟨0, _⟩ => show win0_4.index t (0 : Fin 2) * 64 + 1 * q.val = q.val; rw [e40]; omega
    | ⟨1, _⟩ => show win0_4.index t (1 : Fin 2) * 64 + 1 * k.val = k.val; rw [e41]; omega
  · intro k
    show V m c main_arg6 (((cfg0.win 5).blk t).view.emb (ix2 q k)) = V m c main_arg6 (ix2 q k)
    refine congrArg _ (funext fun a => Fin.ext ?_)
    match a with
    | ⟨0, _⟩ => show win0_5.index t (0 : Fin 2) * 64 + 1 * q.val = q.val; rw [e50]; omega
    | ⟨1, _⟩ => show win0_5.index t (1 : Fin 2) * 64 + 1 * k.val = k.val; rw [e51]; omega
  · rw [Aggregation.V_forward m c ht, Aggregation.V_backward m c hs, V_main_arg3, V_main_arg4, V_main_arg5, V_main_arg6]
    exact (Cert.ReferenceIdeal.Entry.result_apply _ _ _ _ _ _ _ r q).symm

/-- An index of the array is in point `t`'s block iff each coordinate is in the block's range on its axis. -/
theorem mem_blk (t : Fin cfg0.N) (i : S200000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v22).slice (win0_6.rect t)).set ↔ _
  rw [View.set_slice_whole, Rect.mem_set_unit]
  exact Iff.rfl

/-- Every row lies in some point's block: row `r` in block `r / 4000`. -/
theorem cover (i : S200000x64.Idx) : ∃ t : Fin cfg0.N, (cfg0.win 6).flush t = true ∧ i ∈ ((cfg0.win 6).blk t).view.set := by
  have hi0 : (i 0).val < 200000 := (i 0).isLt
  have hi1 : (i 1).val < 64 := (i 1).isLt
  let t : Fin cfg0.N := ⟨(i 0).val / 4000, by rw [show cfg0.N = 50 from N_0]; omega⟩
  obtain ⟨-, -, -, -, -, -, ⟨e60, e61⟩⟩ := block_indices t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; rw [e60, ht]; omega
  | ⟨1, _⟩ => show win0_6.index t (1 : Fin 2) * 64 ≤ (i 1).val ∧ (i 1).val < win0_6.index t (1 : Fin 2) * 64 + 64; rw [e61]; omega

/-- THE ARRAY after the run is `result`. -/
theorem final (c : Dev nD)
    (hs : ∀ e, 0 ≤ ((m ((c : Thread nD τ).loc main_arg1) : IVec S3200000 32) e).toInt)
    (ht : ∀ e, 0 ≤ ((m ((c : Thread nD τ).loc main_arg2) : IVec S3200000 32) e).toInt) :
    (dats m 0 c).arrAt 6 cfg0.N = result m c :=
  (dats m 0 c).arrAt_eq_of_cover 6 (result m c) (fun t _ => flushed_eq m c hs ht t) cover

/-- The frame run re-posted: the result array at `result`, the arguments unchanged. -/
theorem run (hs : ∀ (c : Dev nD) e, 0 ≤ ((m ((c : Thread nD τ).loc main_arg1) : IVec S3200000 32) e).toInt)
    (ht : ∀ (c : Dev nD) e, 0 ≤ ((m ((c : Thread nD τ).loc main_arg2) : IVec S3200000 32) e).toInt) :
    θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hs c) (ht c)), (h c).2⟩) (Value.run_blocks m ρ)

end Cert.KernelIdeal.WholeArray

end
-- ==== Proof.lean ====
/-
  A bidirectional graph convolution: the fused kernel against its array-language reference, on the extended reals.

  With `x` the [200000, 64] node features, `sources` and `targets` the 3200000 edge endpoints, `norm`, `norm_t` two
  [200000, 1] columns of row scales and `W_out`, `W_back` two [64, 64] weight matrices, both programs compute

      relu ((norm · A) · W_outᵀ) + relu ((norm_t · B) · W_backᵀ),
      A = x + ∑ over edges e with targets e = row of x[sources e],   B = x + ∑ over edges e with sources e = row of x[targets e].

  The reference accumulates the gathered rows into `x` with a numpy-style scatter, which first WRAPS a negative index
  `i` to `i + 200000`; the kernel's host code takes a segment sum (an accumulation into zeros, which does NOT wrap: an
  update at a negative row is dropped), adds `x`, and hands `A`, `B` to a kernel that works through the rows in
  fifty blocks of 4000, forming each block's two scaled products against the transposed weights, clamping and adding.

  At a negative endpoint in [-200000, -1] the two programs differ (the reference adds the row at the wrapped
  position, the kernel nowhere), so the claim is stated on the domain of the endpoints that the precondition names:
  every endpoint non-negative. There `wrap` is the identity on the scatter indices and the rest is exact algebra
  that needs no finiteness: `x + (0 + s) = x + s` for the aggregation, the matrix product into a zero accumulator
  as the plain sum over the contracted axis on both sides (the reference's explicit transpose being the kernel's
  contraction over the second axis of both operands), the changes of float format the identity. The fifty row blocks
  tile the array, so the kernel's result array is, entry by entry, the reference's.

  The pieces: `IndexDomain` reads the endpoints' non-negativity off the precondition; `Aggregation` identifies the
  kernel's `A`, `B` with the reference's two scatter stages; `BodyEntry` and `ReferenceEntry` read the two results at an
  entry; `WholeArray` goes from the blocks to the array. The three frames are the generated ones (the reference's
  from its generated run); the kernel's idealization rewrote nothing.
-/
import proofs.«119299_j40415642256025_1_alg».proof.Defs
import proofs.«119299_j40415642256025_1_alg».proof.Proof.Gen.Kernel
import proofs.«119299_j40415642256025_1_alg».proof.Proof.Gen.Kernel.Skeleton
import proofs.«119299_j40415642256025_1_alg».proof.Proof.Gen.Kernel.Launch
import proofs.«119299_j40415642256025_1_alg».proof.Proof.Gen.Kernel.Points
import proofs.«119299_j40415642256025_1_alg».proof.Proof.Gen.Kernel.Frame
import proofs.«119299_j40415642256025_1_alg».proof.Proof.Gen.KernelIdeal
import proofs.«119299_j40415642256025_1_alg».proof.Proof.Gen.KernelIdeal.Skeleton
import proofs.«119299_j40415642256025_1_alg».proof.Proof.Gen.KernelIdeal.Launch
import proofs.«119299_j40415642256025_1_alg».proof.Proof.Gen.KernelIdeal.Points
import proofs.«119299_j40415642256025_1_alg».proof.Proof.Gen.KernelIdeal.Frame
import proofs.«119299_j40415642256025_1_alg».proof.Proof.Gen.ReferenceIdeal
import proofs.«119299_j40415642256025_1_alg».proof.Proof.Gen.Pre_finite_inputs
import proofs.«119299_j40415642256025_1_alg».proof.Proof.Gen.KernelIdeal.Value
import proofs.«119299_j40415642256025_1_alg».proof.Proof.Gen.ReferenceIdeal.Run
import proofs.«119299_j40415642256025_1_alg».proof.Proof.Gen.ReferenceIdeal.Read
import proofs.«119299_j40415642256025_1_alg».proof.Proof.IndexDomain
import proofs.«119299_j40415642256025_1_alg».proof.Proof.WholeArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of array operations: it runs, and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories agreeing on the arguments, with every endpoint non-negative, both programs end with the reference's
    composed stage of the arguments in their result arrays. -/
theorem algebraic : Cert.algebraic_KernelIdeal_ReferenceIdeal := by
  intro m ρ m' ρ' hpre hagree
  have hs := fun c => (IndexDomain.nonneg _ _ _ _ _ _ _ (hpre c)).1
  have ht := fun c => (IndexDomain.nonneg _ _ _ _ _ _ _ (hpre c)).2
  refine ⟨fun c => Cert.KernelIdeal.WholeArray.result m c, Cert.KernelIdeal.WholeArray.run m ρ hs ht, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2]
  exact Cert.ReferenceIdeal.Read.val_main_v38_eq (F := Ideal) _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
